-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S44x1x400000 : Shape := ⟨3, ![44, 1, 400000]⟩
abbrev S44x4x1 : Shape := ⟨3, ![44, 4, 1]⟩
abbrev S44x8x4 : Shape := ⟨3, ![44, 8, 4]⟩
abbrev S44x4x8 : Shape := ⟨3, ![44, 4, 8]⟩
abbrev S44x1x4 : Shape := ⟨3, ![44, 1, 4]⟩
abbrev S_ : Shape := ⟨0, ![]⟩

class Facts : Prop where
  bcast_S_S44x1x400000 : S_.BroadcastsInDim S44x1x400000 (![] : Fin 0 → Fin S44x1x400000.rank)
  reducesTo_S44x1x400000_S_d0_1_2 : S44x1x400000.ReducesTo [0, 1, 2] S_
  h_S_ : 0 < S_.numel
  bcast_S_S44x4x1 : S_.BroadcastsInDim S44x4x1 (![] : Fin 0 → Fin S44x4x1.rank)
  reducesTo_S44x4x1_S_d0_1_2 : S44x4x1.ReducesTo [0, 1, 2] S_
  bcast_S_S44x8x4 : S_.BroadcastsInDim S44x8x4 (![] : Fin 0 → Fin S44x8x4.rank)
  reducesTo_S44x8x4_S_d0_1_2 : S44x8x4.ReducesTo [0, 1, 2] S_
  bcast_S_S44x4x8 : S_.BroadcastsInDim S44x4x8 (![] : Fin 0 → Fin S44x4x8.rank)
  reducesTo_S44x4x8_S_d0_1_2 : S44x4x8.ReducesTo [0, 1, 2] S_
  bcast_S_S44x1x4 : S_.BroadcastsInDim S44x1x4 (![] : Fin 0 → Fin S44x1x4.rank)
  reducesTo_S44x1x4_S_d0_1_2 : S44x1x4.ReducesTo [0, 1, 2] S_

variable [Facts]

def fn_part1 {F : FTy → Type} [FloatOps F] (main_arg4 : FVec F S44x1x4 .f32) (main_v13 : IVec S_ 1) (main_v16 : IVec S44x4x8 1) : IVec S_ 1 :=
  let main_c_5 : IVec S_ 1 := constantI S_ 1 1#1
  let main_v17 : IVec S_ 1 := (fun x v => Host.reduce IntOp.andi x v reducesTo_S44x4x8_S_d0_1_2 h_S_) main_v16 main_c_5
  let main_v18 : IVec S_ 1 := andi main_v13 main_v17
  let main_v19 : FVec F S44x1x4 .f32 := Host.absf main_arg4
  let main_cst_6 : FVec F S_ .f32 := constant S_ .f32 0x7F800000#32
  let main_v20 : FVec F S44x1x4 .f32 := broadcastInDim S44x1x4 ![] bcast_S_S44x1x4 main_cst_6
  let main_v21 : IVec S44x1x4 1 := cmpf .olt main_v19 main_v20
  let main_c_7 : IVec S_ 1 := constantI S_ 1 1#1
  let main_v22 : IVec S_ 1 := (fun x v => Host.reduce IntOp.andi x v reducesTo_S44x1x4_S_d0_1_2 h_S_) main_v21 main_c_7
  let main_v23 : IVec S_ 1 := andi main_v18 main_v22
  main_v23

def fn {F : FTy → Type} [FloatOps F] (main_arg0 : FVec F S44x1x400000 .f32) (main_arg1 : FVec F S44x4x1 .f32) (main_arg2 : FVec F S44x8x4 .f32) (main_arg3 : FVec F S44x4x8 .f32) (main_arg4 : FVec F S44x1x4 .f32) : IVec S_ 1 :=
  let main_v0 : FVec F S44x1x400000 .f32 := Host.absf main_arg0
  let main_cst : FVec F S_ .f32 := constant S_ .f32 0x7F800000#32
  let main_v1 : FVec F S44x1x400000 .f32 := broadcastInDim S44x1x400000 ![] bcast_S_S44x1x400000 main_cst
  let main_v2 : IVec S44x1x400000 1 := cmpf .olt main_v0 main_v1
  let main_c : IVec S_ 1 := constantI S_ 1 1#1
  let main_v3 : IVec S_ 1 := (fun x v => Host.reduce IntOp.andi x v reducesTo_S44x1x400000_S_d0_1_2 h_S_) main_v2 main_c
  let main_v4 : FVec F S44x4x1 .f32 := Host.absf main_arg1
  let main_cst_0 : FVec F S_ .f32 := constant S_ .f32 0x7F800000#32
  let main_v5 : FVec F S44x4x1 .f32 := broadcastInDim S44x4x1 ![] bcast_S_S44x4x1 main_cst_0
  let main_v6 : IVec S44x4x1 1 := cmpf .olt main_v4 main_v5
  let main_c_1 : IVec S_ 1 := constantI S_ 1 1#1
  let main_v7 : IVec S_ 1 := (fun x v => Host.reduce IntOp.andi x v reducesTo_S44x4x1_S_d0_1_2 h_S_) main_v6 main_c_1
  let main_v8 : IVec S_ 1 := andi main_v3 main_v7
  let main_v9 : FVec F S44x8x4 .f32 := Host.absf main_arg2
  let main_cst_2 : FVec F S_ .f32 := constant S_ .f32 0x7F800000#32
  let main_v10 : FVec F S44x8x4 .f32 := broadcastInDim S44x8x4 ![] bcast_S_S44x8x4 main_cst_2
  let main_v11 : IVec S44x8x4 1 := cmpf .olt main_v9 main_v10
  let main_c_3 : IVec S_ 1 := constantI S_ 1 1#1
  let main_v12 : IVec S_ 1 := (fun x v => Host.reduce IntOp.andi x v reducesTo_S44x8x4_S_d0_1_2 h_S_) main_v11 main_c_3
  let main_v13 : IVec S_ 1 := andi main_v8 main_v12
  let main_v14 : FVec F S44x4x8 .f32 := Host.absf main_arg3
  let main_cst_4 : FVec F S_ .f32 := constant S_ .f32 0x7F800000#32
  let main_v15 : FVec F S44x4x8 .f32 := broadcastInDim S44x4x8 ![] bcast_S_S44x4x8 main_cst_4
  let main_v16 : IVec S44x4x8 1 := cmpf .olt main_v14 main_v15
  fn_part1 (F := F) main_arg4 main_v13 main_v16
-- ==== Kernel.lean ====
abbrev S44x1x400000 : Shape := ⟨3, ![44, 1, 400000]⟩
abbrev S44x4x1 : Shape := ⟨3, ![44, 4, 1]⟩
abbrev S44x8x4 : Shape := ⟨3, ![44, 8, 4]⟩
abbrev S44x4x8 : Shape := ⟨3, ![44, 4, 8]⟩
abbrev S44x1x4 : Shape := ⟨3, ![44, 1, 4]⟩
abbrev S1x1x80000 : Shape := ⟨3, ![1, 1, 80000]⟩
abbrev S1x4x1 : Shape := ⟨3, ![1, 4, 1]⟩
abbrev S1x8x4 : Shape := ⟨3, ![1, 8, 4]⟩
abbrev S1x4x8 : Shape := ⟨3, ![1, 4, 8]⟩
abbrev S1x1x4 : Shape := ⟨3, ![1, 1, 4]⟩
abbrev S1x80000 : Shape := ⟨2, ![1, 80000]⟩
abbrev S4x1 : Shape := ⟨2, ![4, 1]⟩
abbrev S8x4 : Shape := ⟨2, ![8, 4]⟩
abbrev S4x8 : Shape := ⟨2, ![4, 8]⟩
abbrev S1x4 : Shape := ⟨2, ![1, 4]⟩
abbrev S4x80000 : Shape := ⟨2, ![4, 80000]⟩
abbrev S8x80000 : Shape := ⟨2, ![8, 80000]⟩

abbrev nBuf : Space → Nat
  | .hbm => 6
  | .vmem => 12
  | .smem => 0
  | _ => 0

abbrev bufTy : (tb : Table) → Fin (tcTables nBuf tb) → BufTy
  | .hbm, ⟨0, _⟩ => ⟨S44x1x400000, .f32⟩
  | .hbm, ⟨1, _⟩ => ⟨S44x4x1, .f32⟩
  | .hbm, ⟨2, _⟩ => ⟨S44x8x4, .f32⟩
  | .hbm, ⟨3, _⟩ => ⟨S44x4x8, .f32⟩
  | .hbm, ⟨4, _⟩ => ⟨S44x1x4, .f32⟩
  | .hbm, ⟨5, _⟩ => ⟨S44x1x400000, .f32⟩
  | .local _ .vmem, ⟨0, _⟩ => ⟨S1x1x80000, .f32⟩
  | .local _ .vmem, ⟨1, _⟩ => ⟨S1x1x80000, .f32⟩
  | .local _ .vmem, ⟨2, _⟩ => ⟨S1x4x1, .f32⟩
  | .local _ .vmem, ⟨3, _⟩ => ⟨S1x4x1, .f32⟩
  | .local _ .vmem, ⟨4, _⟩ => ⟨S1x8x4, .f32⟩
  | .local _ .vmem, ⟨5, _⟩ => ⟨S1x8x4, .f32⟩
  | .local _ .vmem, ⟨6, _⟩ => ⟨S1x4x8, .f32⟩
  | .local _ .vmem, ⟨7, _⟩ => ⟨S1x4x8, .f32⟩
  | .local _ .vmem, ⟨8, _⟩ => ⟨S1x1x4, .f32⟩
  | .local _ .vmem, ⟨9, _⟩ => ⟨S1x1x4, .f32⟩
  | .local _ .vmem, ⟨10, _⟩ => ⟨S1x1x80000, .f32⟩
  | .local _ .vmem, ⟨11, _⟩ => ⟨S1x1x80000, .f32⟩
  | _, _ => ⟨S44x1x400000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![44, 5], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1x80000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x4x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x4 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x80000 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  inb_S1x1x80000_S1x1x80000_0_0_0 : ∀ a, (![0, 0, 0] : Fin 3 → Nat) a + S1x1x80000.size a ≤ S1x1x80000.size a
  h_S1x1x80000 : 0 < S1x1x80000.numel
  shapeCasts_S1x1x80000_S1x80000 : S1x1x80000.ShapeCasts S1x80000
  inb_S1x4x1_S1x4x1_0_0_0 : ∀ a, (![0, 0, 0] : Fin 3 → Nat) a + S1x4x1.size a ≤ S1x4x1.size a
  h_S1x4x1 : 0 < S1x4x1.numel
  shapeCasts_S1x4x1_S4x1 : S1x4x1.ShapeCasts S4x1
  inb_S1x8x4_S1x8x4_0_0_0 : ∀ a, (![0, 0, 0] : Fin 3 → Nat) a + S1x8x4.size a ≤ S1x8x4.size a
  h_S1x8x4 : 0 < S1x8x4.numel
  shapeCasts_S1x8x4_S8x4 : S1x8x4.ShapeCasts S8x4
  inb_S1x4x8_S1x4x8_0_0_0 : ∀ a, (![0, 0, 0] : Fin 3 → Nat) a + S1x4x8.size a ≤ S1x4x8.size a
  h_S1x4x8 : 0 < S1x4x8.numel
  shapeCasts_S1x4x8_S4x8 : S1x4x8.ShapeCasts S4x8
  inb_S1x1x4_S1x1x4_0_0_0 : ∀ a, (![0, 0, 0] : Fin 3 → Nat) a + S1x1x4.size a ≤ S1x1x4.size a
  h_S1x1x4 : 0 < S1x1x4.numel
  shapeCasts_S1x1x4_S1x4 : S1x1x4.ShapeCasts S1x4
  shapeCasts_S1x80000_S1x1x80000 : S1x80000.ShapeCasts S1x1x80000
  dot_S4x1_S1x80000_S4x80000_1_0_0_1_n_n_wf : DotDims.WF S4x1 S1x80000 S4x80000 [1] [0] [0] [1] [] []
  dot_S8x4_S4x80000_S8x80000_1_0_0_1_n_n_wf : DotDims.WF S8x4 S4x80000 S8x80000 [1] [0] [0] [1] [] []
  dot_S4x8_S8x80000_S4x80000_1_0_0_1_n_n_wf : DotDims.WF S4x8 S8x80000 S4x80000 [1] [0] [0] [1] [] []
  dot_S1x4_S4x80000_S1x80000_1_0_0_1_n_n_wf : DotDims.WF S1x4 S4x80000 S1x80000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x80000.size a ≤ S44x1x400000.size a
  hwx0_0 : ∀ i : grid0.Coords, EltTy.bits .f32 = 32 ∨ (Rect.block (s := S44x1x400000) S1x1x80000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4x1.size a ≤ S44x4x1.size a
  hwx0_1 : ∀ i : grid0.Coords, EltTy.bits .f32 = 32 ∨ (Rect.block (s := S44x4x1) S1x4x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x4.size a ≤ S44x8x4.size a
  hwx0_2 : ∀ i : grid0.Coords, EltTy.bits .f32 = 32 ∨ (Rect.block (s := S44x8x4) S1x8x4.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x4x8.size a ≤ S44x4x8.size a
  hwx0_3 : ∀ i : grid0.Coords, EltTy.bits .f32 = 32 ∨ (Rect.block (s := S44x4x8) S1x4x8.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x4.size a ≤ S44x1x4.size a
  hwx0_4 : ∀ i : grid0.Coords, EltTy.bits .f32 = 32 ∨ (Rect.block (s := S44x1x4) S1x1x4.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x80000.size a ≤ S44x1x400000.size a
  hwx0_5 : ∀ i : grid0.Coords, EltTy.bits .f32 = 32 ∨ (Rect.block (s := S44x1x400000) S1x1x80000.size (cc0_transform_5 i) (hinb0_5 i)).WholeWords (EltTy.packing .f32)

variable [Facts₀]

def dot_S4x1_S1x80000_S4x80000_1_0_0_1_n_n : DotDims S4x1 S1x80000 S4x80000 where
  lhsContracting := [1]
  rhsContracting := [0]
  lhsNonContracting := [0]
  rhsNonContracting := [1]
  lhsBatch := []
  rhsBatch := []
  wf := dot_S4x1_S1x80000_S4x80000_1_0_0_1_n_n_wf
def dot_S8x4_S4x80000_S8x80000_1_0_0_1_n_n : DotDims S8x4 S4x80000 S8x80000 where
  lhsContracting := [1]
  rhsContracting := [0]
  lhsNonContracting := [0]
  rhsNonContracting := [1]
  lhsBatch := []
  rhsBatch := []
  wf := dot_S8x4_S4x80000_S8x80000_1_0_0_1_n_n_wf
def dot_S4x8_S8x80000_S4x80000_1_0_0_1_n_n : DotDims S4x8 S8x80000 S4x80000 where
  lhsContracting := [1]
  rhsContracting := [0]
  lhsNonContracting := [0]
  rhsNonContracting := [1]
  lhsBatch := []
  rhsBatch := []
  wf := dot_S4x8_S8x80000_S4x80000_1_0_0_1_n_n_wf
def dot_S1x4_S4x80000_S1x80000_1_0_0_1_n_n : DotDims S1x4 S4x80000 S1x80000 where
  lhsContracting := [1]
  rhsContracting := [0]
  lhsNonContracting := [0]
  rhsNonContracting := [1]
  lhsBatch := []
  rhsBatch := []
  wf := dot_S1x4_S4x80000_S1x80000_1_0_0_1_n_n_wf

abbrev win0_0 : Pipeline.Window sig grid0 :=
  Pipeline.Window.ofSpec (Memref.whole main_arg0) S1x1x80000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x4x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x8x4.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x4x8.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x1x4.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1x1x80000.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S44x1x400000 : Shape := ⟨3, ![44, 1, 400000]⟩
abbrev S44x4x1 : Shape := ⟨3, ![44, 4, 1]⟩
abbrev S44x8x4 : Shape := ⟨3, ![44, 8, 4]⟩
abbrev S44x4x8 : Shape := ⟨3, ![44, 4, 8]⟩
abbrev S44x1x4 : Shape := ⟨3, ![44, 1, 4]⟩
abbrev S44x4x400000 : Shape := ⟨3, ![44, 4, 400000]⟩
abbrev S_ : Shape := ⟨0, ![]⟩
abbrev S44x8x400000 : Shape := ⟨3, ![44, 8, 400000]⟩

abbrev nBuf : Space → Nat
  | .hbm => 18
  | .vmem => 0
  | .smem => 0
  | _ => 0

abbrev bufTy : (tb : Table) → Fin (tcTables nBuf tb) → BufTy
  | .hbm, ⟨0, _⟩ => ⟨S44x1x400000, .f32⟩
  | .hbm, ⟨1, _⟩ => ⟨S44x4x1, .f32⟩
  | .hbm, ⟨2, _⟩ => ⟨S44x8x4, .f32⟩
  | .hbm, ⟨3, _⟩ => ⟨S44x4x8, .f32⟩
  | .hbm, ⟨4, _⟩ => ⟨S44x1x4, .f32⟩
  | .hbm, ⟨5, _⟩ => ⟨S44x4x400000, .f32⟩
  | .hbm, ⟨6, _⟩ => ⟨S_, .f32⟩
  | .hbm, ⟨7, _⟩ => ⟨S44x4x400000, .f32⟩
  | .hbm, ⟨8, _⟩ => ⟨S44x4x400000, .f32⟩
  | .hbm, ⟨9, _⟩ => ⟨S44x8x400000, .f32⟩
  | .hbm, ⟨10, _⟩ => ⟨S_, .f32⟩
  | .hbm, ⟨11, _⟩ => ⟨S44x8x400000, .f32⟩
  | .hbm, ⟨12, _⟩ => ⟨S44x8x400000, .f32⟩
  | .hbm, ⟨13, _⟩ => ⟨S44x4x400000, .f32⟩
  | .hbm, ⟨14, _⟩ => ⟨S_, .f32⟩
  | .hbm, ⟨15, _⟩ => ⟨S44x4x400000, .f32⟩
  | .hbm, ⟨16, _⟩ => ⟨S44x4x400000, .f32⟩
  | .hbm, ⟨17, _⟩ => ⟨S44x1x400000, .f32⟩
  | _, _ => ⟨S44x1x400000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_cst : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_call1_cst : Ref sig .tc := ⟨.hbm, 10, rfl⟩
abbrev main_call1_v0 : Ref sig .tc := ⟨.hbm, 11, rfl⟩
abbrev main_v3 : Ref sig .tc := ⟨.hbm, 12, rfl⟩
abbrev main_v4 : Ref sig .tc := ⟨.hbm, 13, rfl⟩
abbrev main_call2_cst : Ref sig .tc := ⟨.hbm, 14, rfl⟩
abbrev main_call2_v0 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]

class Facts₀ : Prop where
  bcast_S_S44x4x400000 : S_.BroadcastsInDim S44x4x400000 (![] : Fin 0 → Fin S44x4x400000.rank)
  bcast_S_S44x8x400000 : S_.BroadcastsInDim S44x8x400000 (![] : Fin 0 → Fin S44x8x400000.rank)
  dot_S44x4x1_S44x1x400000_S44x4x400000_2_1_1_2_0_0_wf : DotDims.WF S44x4x1 S44x1x400000 S44x4x400000 [2] [1] [1] [2] [0] [0]
  dot_S44x8x4_S44x4x400000_S44x8x400000_2_1_1_2_0_0_wf : DotDims.WF S44x8x4 S44x4x400000 S44x8x400000 [2] [1] [1] [2] [0] [0]
  dot_S44x4x8_S44x8x400000_S44x4x400000_2_1_1_2_0_0_wf : DotDims.WF S44x4x8 S44x8x400000 S44x4x400000 [2] [1] [1] [2] [0] [0]
  dot_S44x1x4_S44x4x400000_S44x1x400000_2_1_1_2_0_0_wf : DotDims.WF S44x1x4 S44x4x400000 S44x1x400000 [2] [1] [1] [2] [0] [0]

variable [Facts₀]

def dot_S44x4x1_S44x1x400000_S44x4x400000_2_1_1_2_0_0 : DotDims S44x4x1 S44x1x400000 S44x4x400000 where
  lhsContracting := [2]
  rhsContracting := [1]
  lhsNonContracting := [1]
  rhsNonContracting := [2]
  lhsBatch := [0]
  rhsBatch := [0]
  wf := dot_S44x4x1_S44x1x400000_S44x4x400000_2_1_1_2_0_0_wf
def dot_S44x8x4_S44x4x400000_S44x8x400000_2_1_1_2_0_0 : DotDims S44x8x4 S44x4x400000 S44x8x400000 where
  lhsContracting := [2]
  rhsContracting := [1]
  lhsNonContracting := [1]
  rhsNonContracting := [2]
  lhsBatch := [0]
  rhsBatch := [0]
  wf := dot_S44x8x4_S44x4x400000_S44x8x400000_2_1_1_2_0_0_wf
def dot_S44x4x8_S44x8x400000_S44x4x400000_2_1_1_2_0_0 : DotDims S44x4x8 S44x8x400000 S44x4x400000 where
  lhsContracting := [2]
  rhsContracting := [1]
  lhsNonContracting := [1]
  rhsNonContracting := [2]
  lhsBatch := [0]
  rhsBatch := [0]
  wf := dot_S44x4x8_S44x8x400000_S44x4x400000_2_1_1_2_0_0_wf
def dot_S44x1x4_S44x4x400000_S44x1x400000_2_1_1_2_0_0 : DotDims S44x1x4 S44x4x400000 S44x1x400000 where
  lhsContracting := [2]
  rhsContracting := [1]
  lhsNonContracting := [1]
  rhsNonContracting := [2]
  lhsBatch := [0]
  rhsBatch := [0]
  wf := dot_S44x1x4_S44x4x400000_S44x1x400000_2_1_1_2_0_0_wf

class Facts : Prop extends Facts₀ where

variable [Facts]
-- ==== Proof.Network.lean ====
/-
  The function both programs compute, on the extended reals.

  One particle `l` carries four small weight matrices `W1 : 4×1`, `W2 : 8×4`, `W3 : 4×8`, `W4 : 1×4`. A batch column
  `x : 1` of its input is sent to `W4 · relu (W3 · relu (W2 · relu (W1 · x)))`, every product a finite sum of products
  and `relu z = max z 0`. The whole result array is this column function at every particle and every batch position:
  entry `(l, o, j)` reads particle `l`'s matrices and column `j` of particle `l`'s input, and nothing else.
-/
import Idealize.ShloMosaic.PureOps.Ideal
import Idealize.ShloMosaic.Lib.ValueIdx

noncomputable section

namespace Cert.Mlp

open Idealize.ShloMosaic Idealize.ShloMosaic.ValueIdx

/-- The rectifier on the extended reals. -/
def relu (z : EReal) : EReal := max z 0

/-- One particle's network at one batch column: four matrix–vector products, the first three rectified. -/
def column (W1 : Fin 4 → Fin 1 → EReal) (W2 : Fin 8 → Fin 4 → EReal) (W3 : Fin 4 → Fin 8 → EReal)
    (W4 : Fin 1 → Fin 4 → EReal) (x : Fin 1 → EReal) (o : Fin 1) : EReal :=
  ∑ c : Fin 4, W4 o c * relu (∑ b : Fin 8, W3 c b * relu (∑ a : Fin 4, W2 b a * relu (∑ u : Fin 1, W1 a u * x u)))

/-- A rank-3 array of extended reals. -/
abbrev Arr (n0 n1 n2 : Nat) : Type := (⟨3, ![n0, n1, n2]⟩ : Shape).Idx → EReal

/-- Entry `(l, o, j)` of the result: particle `l`'s network at column `j` of particle `l`'s input. -/
def network (X : Arr 44 1 400000) (L1 : Arr 44 4 1) (L2 : Arr 44 8 4) (L3 : Arr 44 4 8) (L4 : Arr 44 1 4)
    (l : Fin 44) (o : Fin 1) (j : Fin 400000) : EReal :=
  column (fun a u => L1 (ix3 l a u)) (fun b a => L2 (ix3 l b a)) (fun c b => L3 (ix3 l c b)) (fun o c => L4 (ix3 l o c))
    (fun u => X (ix3 l u j)) o

/-- The result array, index by index. -/
def networkArr (X : Arr 44 1 400000) (L1 : Arr 44 4 1) (L2 : Arr 44 8 4) (L3 : Arr 44 4 8) (L4 : Arr 44 1 4) :
    Arr 44 1 400000 :=
  fun i => network X L1 L2 L3 L4 (i 0) (i 1) (i 2)

theorem networkArr_ix3 (X : Arr 44 1 400000) (L1 : Arr 44 4 1) (L2 : Arr 44 8 4) (L3 : Arr 44 4 8) (L4 : Arr 44 1 4)
    (l : Fin 44) (o : Fin 1) (j : Fin 400000) :
    networkArr X L1 L2 L3 L4 (ix3 l o j) = network X L1 L2 L3 L4 l o j := rfl

end Cert.Mlp

end
-- ==== Proof.RefNetwork.lean ====
/-
  The reference's result is the network, index by index.

  The reference is four batched matrix products over the particle axis with a rectifier after each of the first three.
  Read at entry `(l, o, j)`, each product is the sum over its one contracted axis of the left factor at `(l, row, k)`
  times the right factor at `(l, k, j)`, and each rectifier is `max · 0` entrywise: the nested sums are those of
  `Cert.Mlp.column` at particle `l` and column `j`.
-/
import proofs.«141210_j35820027249305_1_alg».proof.Proof.Gen.ReferenceIdeal.Read
import proofs.«141210_j35820027249305_1_alg».proof.Proof.Network
import Idealize.ShloMosaic.PureOps.Ideal.Laws

noncomputable section

namespace Cert.Mlp.Ref

open Cert.ReferenceIdeal Cert.ReferenceIdeal.Read Idealize.ShloMosaic Idealize.ShloMosaic.ValueIdx

/-! ## Where each product reads its factors -/

theorem lidx0 (l : Fin 44) (a : Fin 4) (j : Fin 400000) (k : Fin 1) : lidx_main_v0 (ix3 l a j) k = ix3 l a k := by
  funext d; match d with | ⟨0, _⟩ => rfl | ⟨1, _⟩ => rfl | ⟨2, _⟩ => rfl
theorem ridx0 (l : Fin 44) (a : Fin 4) (j : Fin 400000) (k : Fin 1) : ridx_main_v0 (ix3 l a j) k = ix3 l k j := by
  funext d; match d with | ⟨0, _⟩ => rfl | ⟨1, _⟩ => rfl | ⟨2, _⟩ => rfl
theorem lidx2 (l : Fin 44) (b : Fin 8) (j : Fin 400000) (k : Fin 4) : lidx_main_v2 (ix3 l b j) k = ix3 l b k := by
  funext d; match d with | ⟨0, _⟩ => rfl | ⟨1, _⟩ => rfl | ⟨2, _⟩ => rfl
theorem ridx2 (l : Fin 44) (b : Fin 8) (j : Fin 400000) (k : Fin 4) : ridx_main_v2 (ix3 l b j) k = ix3 l k j := by
  funext d; match d with | ⟨0, _⟩ => rfl | ⟨1, _⟩ => rfl | ⟨2, _⟩ => rfl
theorem lidx4 (l : Fin 44) (c : Fin 4) (j : Fin 400000) (k : Fin 8) : lidx_main_v4 (ix3 l c j) k = ix3 l c k := by
  funext d; match d with | ⟨0, _⟩ => rfl | ⟨1, _⟩ => rfl | ⟨2, _⟩ => rfl
theorem ridx4 (l : Fin 44) (c : Fin 4) (j : Fin 400000) (k : Fin 8) : ridx_main_v4 (ix3 l c j) k = ix3 l k j := by
  funext d; match d with | ⟨0, _⟩ => rfl | ⟨1, _⟩ => rfl | ⟨2, _⟩ => rfl
theorem lidx6 (l : Fin 44) (o : Fin 1) (j : Fin 400000) (k : Fin 4) : lidx_main_v6 (ix3 l o j) k = ix3 l o k := by
  funext d; match d with | ⟨0, _⟩ => rfl | ⟨1, _⟩ => rfl | ⟨2, _⟩ => rfl
theorem ridx6 (l : Fin 44) (o : Fin 1) (j : Fin 400000) (k : Fin 4) : ridx_main_v6 (ix3 l o j) k = ix3 l k j := by
  funext d; match d with | ⟨0, _⟩ => rfl | ⟨1, _⟩ => rfl | ⟨2, _⟩ => rfl

/-! ## The reference's last stage is the network -/

/-- The reference's composed term, as a function of the five argument arrays, is the network array. -/
theorem reference_eq (X : Arr 44 1 400000) (L1 : Arr 44 4 1) (L2 : Arr 44 8 4) (L3 : Arr 44 4 8) (L4 : Arr 44 1 4) :
    val_main_v6 (F := Ideal) X L1 L2 L3 L4 = networkArr X L1 L2 L3 L4 := by
  funext i
  obtain ⟨l, o, j, rfl⟩ : ∃ (l : Fin 44) (o : Fin 1) (j : Fin 400000), i = ix3 l o j := ⟨i 0, i 1, i 2, eq_ix3 i⟩
  rw [networkArr_ix3]
  simp only [val_main_v6_apply, lidx6, ridx6, val_main_v5_apply, val_main_call2_v0_apply, val_main_call2_cst_apply,
    val_main_v4_apply, lidx4, ridx4, val_main_v3_apply, val_main_call1_v0_apply, val_main_call1_cst_apply,
    val_main_v2_apply, lidx2, ridx2, val_main_v1_apply, val_main_call0_v0_apply, val_main_call0_cst_apply,
    val_main_v0_apply, lidx0, ridx0, Ideal.maximumf_def, Ideal.ofBits_def, Ideal.ofBits_zero_f32]
  rfl

end Cert.Mlp.Ref

end
-- ==== Proof.KernelProducts.lean ====
/-
  The kernel body's four matrix products, each read at one entry.

  Every product of the body multiplies a small weight matrix by a block of 80000 columns and adds the result to a zero
  block. On the extended reals that is, at row `p` and column `q`, the plain sum over the contracted axis of the left
  factor at `(p, k)` times the right factor at `(k, q)`: the zero accumulator adds nothing, and the product's one
  contracted axis is re-indexed by its single coordinate.
-/
import proofs.«141210_j35820027249305_1_alg».proof.Proof.Gen.KernelIdeal
import Idealize.ShloMosaic.Lib.ValueIdx
import Idealize.ShloMosaic.PureOps.Ideal.Laws

noncomputable section

namespace Cert.Mlp.Kernel

open Cert.KernelIdeal Cert.KernelIdeal.Gen Idealize.ShloMosaic Idealize.ShloMosaic.ValueIdx

/-! ## Layer 1: a `4×1` matrix times a `1×80000` block -/

/-- The left factor's row is the result's row. -/
theorem product1_lhs_row (i : S4x80000.Idx) (k : dot_S4x1_S1x80000_S4x80000_1_0_0_1_n_n.contr.Idx) :
    (dot_S4x1_S1x80000_S4x80000_1_0_0_1_n_n.lhsIdx i k 0).val = (i 0).val := by
  unfold DotDims.lhsIdx
  rw [dif_neg (show ¬(0 : Fin S4x1.rank) ∈ dot_S4x1_S1x80000_S4x80000_1_0_0_1_n_n.lhsBatch by decide),
    dif_pos (show (0 : Fin S4x1.rank) ∈ dot_S4x1_S1x80000_S4x80000_1_0_0_1_n_n.lhsNonContracting by decide)]
  rfl

/-- The right factor's column is the result's column. -/
theorem product1_rhs_col (i : S4x80000.Idx) (k : dot_S4x1_S1x80000_S4x80000_1_0_0_1_n_n.contr.Idx) :
    (dot_S4x1_S1x80000_S4x80000_1_0_0_1_n_n.rhsIdx i k 1).val = (i 1).val := by
  unfold DotDims.rhsIdx
  rw [dif_neg (show ¬(1 : Fin S1x80000.rank) ∈ dot_S4x1_S1x80000_S4x80000_1_0_0_1_n_n.rhsBatch by decide),
    dif_pos (show (1 : Fin S1x80000.rank) ∈ dot_S4x1_S1x80000_S4x80000_1_0_0_1_n_n.rhsNonContracting by decide)]
  rfl

/-- Layer 1's product into the zero block, read at `(p, q)`: the sum over the one contracted position `k` of the
    left factor at `(p, k)` times the right factor at `(k, q)`. -/
theorem product1_apply (lhs : FVec Ideal S4x1 .f32) (rhs : FVec Ideal S1x80000 .f32) (p : Fin 4) (q : Fin 80000) :
    matmul dot_S4x1_S1x80000_S4x80000_1_0_0_1_n_n none lhs rhs (constant S4x80000 .f32 0x00000000#32) (ix2 p q)
      = ∑ k : Fin 1, lhs (ix2 p k) * rhs (ix2 k q) := by
  refine (Ideal.matmul_constant_zero_apply dot_S4x1_S1x80000_S4x80000_1_0_0_1_n_n none lhs rhs (ix2 p q)).trans ?_
  rw [← Equiv.sum_comp (contrEquiv1 dot_S4x1_S1x80000_S4x80000_1_0_0_1_n_n 1 rfl rfl).symm]
  refine Finset.sum_congr rfl fun k _ => ?_
  have hk := contrEquiv1_symm_val dot_S4x1_S1x80000_S4x80000_1_0_0_1_n_n 1 rfl rfl k
  have el : dot_S4x1_S1x80000_S4x80000_1_0_0_1_n_n.lhsIdx (ix2 p q) ((contrEquiv1 dot_S4x1_S1x80000_S4x80000_1_0_0_1_n_n 1 rfl rfl).symm k) = ix2 p k :=
    funext fun a => Fin.ext (by
      match a with
      | ⟨0, _⟩ => exact product1_lhs_row _ _
      | ⟨1, _⟩ => exact (dot_S4x1_S1x80000_S4x80000_1_0_0_1_n_n.lhsIdx_val_of_single rfl _ _).trans hk)
  have er : dot_S4x1_S1x80000_S4x80000_1_0_0_1_n_n.rhsIdx (ix2 p q) ((contrEquiv1 dot_S4x1_S1x80000_S4x80000_1_0_0_1_n_n 1 rfl rfl).symm k) = ix2 k q :=
    funext fun a => Fin.ext (by
      match a with
      | ⟨0, _⟩ => exact (dot_S4x1_S1x80000_S4x80000_1_0_0_1_n_n.rhsIdx_val_of_single rfl _ _).trans hk
      | ⟨1, _⟩ => exact product1_rhs_col _ _)
  rw [el, er]

/-! ## Layer 2: a `8×4` matrix times a `4×80000` block -/

/-- The left factor's row is the result's row. -/
theorem product2_lhs_row (i : S8x80000.Idx) (k : dot_S8x4_S4x80000_S8x80000_1_0_0_1_n_n.contr.Idx) :
    (dot_S8x4_S4x80000_S8x80000_1_0_0_1_n_n.lhsIdx i k 0).val = (i 0).val := by
  unfold DotDims.lhsIdx
  rw [dif_neg (show ¬(0 : Fin S8x4.rank) ∈ dot_S8x4_S4x80000_S8x80000_1_0_0_1_n_n.lhsBatch by decide),
    dif_pos (show (0 : Fin S8x4.rank) ∈ dot_S8x4_S4x80000_S8x80000_1_0_0_1_n_n.lhsNonContracting by decide)]
  rfl

/-- The right factor's column is the result's column. -/
theorem product2_rhs_col (i : S8x80000.Idx) (k : dot_S8x4_S4x80000_S8x80000_1_0_0_1_n_n.contr.Idx) :
    (dot_S8x4_S4x80000_S8x80000_1_0_0_1_n_n.rhsIdx i k 1).val = (i 1).val := by
  unfold DotDims.rhsIdx
  rw [dif_neg (show ¬(1 : Fin S4x80000.rank) ∈ dot_S8x4_S4x80000_S8x80000_1_0_0_1_n_n.rhsBatch by decide),
    dif_pos (show (1 : Fin S4x80000.rank) ∈ dot_S8x4_S4x80000_S8x80000_1_0_0_1_n_n.rhsNonContracting by decide)]
  rfl

/-- Layer 2's product into the zero block, read at `(p, q)`: the sum over the 4 contracted positions `k` of the
    left factor at `(p, k)` times the right factor at `(k, q)`. -/
theorem product2_apply (lhs : FVec Ideal S8x4 .f32) (rhs : FVec Ideal S4x80000 .f32) (p : Fin 8) (q : Fin 80000) :
    matmul dot_S8x4_S4x80000_S8x80000_1_0_0_1_n_n none lhs rhs (constant S8x80000 .f32 0x00000000#32) (ix2 p q)
      = ∑ k : Fin 4, lhs (ix2 p k) * rhs (ix2 k q) := by
  refine (Ideal.matmul_constant_zero_apply dot_S8x4_S4x80000_S8x80000_1_0_0_1_n_n none lhs rhs (ix2 p q)).trans ?_
  rw [← Equiv.sum_comp (contrEquiv1 dot_S8x4_S4x80000_S8x80000_1_0_0_1_n_n 4 rfl rfl).symm]
  refine Finset.sum_congr rfl fun k _ => ?_
  have hk := contrEquiv1_symm_val dot_S8x4_S4x80000_S8x80000_1_0_0_1_n_n 4 rfl rfl k
  have el : dot_S8x4_S4x80000_S8x80000_1_0_0_1_n_n.lhsIdx (ix2 p q) ((contrEquiv1 dot_S8x4_S4x80000_S8x80000_1_0_0_1_n_n 4 rfl rfl).symm k) = ix2 p k :=
    funext fun a => Fin.ext (by
      match a with
      | ⟨0, _⟩ => exact product2_lhs_row _ _
      | ⟨1, _⟩ => exact (dot_S8x4_S4x80000_S8x80000_1_0_0_1_n_n.lhsIdx_val_of_single rfl _ _).trans hk)
  have er : dot_S8x4_S4x80000_S8x80000_1_0_0_1_n_n.rhsIdx (ix2 p q) ((contrEquiv1 dot_S8x4_S4x80000_S8x80000_1_0_0_1_n_n 4 rfl rfl).symm k) = ix2 k q :=
    funext fun a => Fin.ext (by
      match a with
      | ⟨0, _⟩ => exact (dot_S8x4_S4x80000_S8x80000_1_0_0_1_n_n.rhsIdx_val_of_single rfl _ _).trans hk
      | ⟨1, _⟩ => exact product2_rhs_col _ _)
  rw [el, er]

/-! ## Layer 3: a `4×8` matrix times a `8×80000` block -/

/-- The left factor's row is the result's row. -/
theorem product3_lhs_row (i : S4x80000.Idx) (k : dot_S4x8_S8x80000_S4x80000_1_0_0_1_n_n.contr.Idx) :
    (dot_S4x8_S8x80000_S4x80000_1_0_0_1_n_n.lhsIdx i k 0).val = (i 0).val := by
  unfold DotDims.lhsIdx
  rw [dif_neg (show ¬(0 : Fin S4x8.rank) ∈ dot_S4x8_S8x80000_S4x80000_1_0_0_1_n_n.lhsBatch by decide),
    dif_pos (show (0 : Fin S4x8.rank) ∈ dot_S4x8_S8x80000_S4x80000_1_0_0_1_n_n.lhsNonContracting by decide)]
  rfl

/-- The right factor's column is the result's column. -/
theorem product3_rhs_col (i : S4x80000.Idx) (k : dot_S4x8_S8x80000_S4x80000_1_0_0_1_n_n.contr.Idx) :
    (dot_S4x8_S8x80000_S4x80000_1_0_0_1_n_n.rhsIdx i k 1).val = (i 1).val := by
  unfold DotDims.rhsIdx
  rw [dif_neg (show ¬(1 : Fin S8x80000.rank) ∈ dot_S4x8_S8x80000_S4x80000_1_0_0_1_n_n.rhsBatch by decide),
    dif_pos (show (1 : Fin S8x80000.rank) ∈ dot_S4x8_S8x80000_S4x80000_1_0_0_1_n_n.rhsNonContracting by decide)]
  rfl

/-- Layer 3's product into the zero block, read at `(p, q)`: the sum over the 8 contracted positions `k` of the
    left factor at `(p, k)` times the right factor at `(k, q)`. -/
theorem product3_apply (lhs : FVec Ideal S4x8 .f32) (rhs : FVec Ideal S8x80000 .f32) (p : Fin 4) (q : Fin 80000) :
    matmul dot_S4x8_S8x80000_S4x80000_1_0_0_1_n_n none lhs rhs (constant S4x80000 .f32 0x00000000#32) (ix2 p q)
      = ∑ k : Fin 8, lhs (ix2 p k) * rhs (ix2 k q) := by
  refine (Ideal.matmul_constant_zero_apply dot_S4x8_S8x80000_S4x80000_1_0_0_1_n_n none lhs rhs (ix2 p q)).trans ?_
  rw [← Equiv.sum_comp (contrEquiv1 dot_S4x8_S8x80000_S4x80000_1_0_0_1_n_n 8 rfl rfl).symm]
  refine Finset.sum_congr rfl fun k _ => ?_
  have hk := contrEquiv1_symm_val dot_S4x8_S8x80000_S4x80000_1_0_0_1_n_n 8 rfl rfl k
  have el : dot_S4x8_S8x80000_S4x80000_1_0_0_1_n_n.lhsIdx (ix2 p q) ((contrEquiv1 dot_S4x8_S8x80000_S4x80000_1_0_0_1_n_n 8 rfl rfl).symm k) = ix2 p k :=
    funext fun a => Fin.ext (by
      match a with
      | ⟨0, _⟩ => exact product3_lhs_row _ _
      | ⟨1, _⟩ => exact (dot_S4x8_S8x80000_S4x80000_1_0_0_1_n_n.lhsIdx_val_of_single rfl _ _).trans hk)
  have er : dot_S4x8_S8x80000_S4x80000_1_0_0_1_n_n.rhsIdx (ix2 p q) ((contrEquiv1 dot_S4x8_S8x80000_S4x80000_1_0_0_1_n_n 8 rfl rfl).symm k) = ix2 k q :=
    funext fun a => Fin.ext (by
      match a with
      | ⟨0, _⟩ => exact (dot_S4x8_S8x80000_S4x80000_1_0_0_1_n_n.rhsIdx_val_of_single rfl _ _).trans hk
      | ⟨1, _⟩ => exact product3_rhs_col _ _)
  rw [el, er]

/-! ## Layer 4: a `1×4` matrix times a `4×80000` block -/

/-- The left factor's row is the result's row. -/
theorem product4_lhs_row (i : S1x80000.Idx) (k : dot_S1x4_S4x80000_S1x80000_1_0_0_1_n_n.contr.Idx) :
    (dot_S1x4_S4x80000_S1x80000_1_0_0_1_n_n.lhsIdx i k 0).val = (i 0).val := by
  unfold DotDims.lhsIdx
  rw [dif_neg (show ¬(0 : Fin S1x4.rank) ∈ dot_S1x4_S4x80000_S1x80000_1_0_0_1_n_n.lhsBatch by decide),
    dif_pos (show (0 : Fin S1x4.rank) ∈ dot_S1x4_S4x80000_S1x80000_1_0_0_1_n_n.lhsNonContracting by decide)]
  rfl

/-- The right factor's column is the result's column. -/
theorem product4_rhs_col (i : S1x80000.Idx) (k : dot_S1x4_S4x80000_S1x80000_1_0_0_1_n_n.contr.Idx) :
    (dot_S1x4_S4x80000_S1x80000_1_0_0_1_n_n.rhsIdx i k 1).val = (i 1).val := by
  unfold DotDims.rhsIdx
  rw [dif_neg (show ¬(1 : Fin S4x80000.rank) ∈ dot_S1x4_S4x80000_S1x80000_1_0_0_1_n_n.rhsBatch by decide),
    dif_pos (show (1 : Fin S4x80000.rank) ∈ dot_S1x4_S4x80000_S1x80000_1_0_0_1_n_n.rhsNonContracting by decide)]
  rfl

/-- Layer 4's product into the zero block, read at `(p, q)`: the sum over the 4 contracted positions `k` of the
    left factor at `(p, k)` times the right factor at `(k, q)`. -/
theorem product4_apply (lhs : FVec Ideal S1x4 .f32) (rhs : FVec Ideal S4x80000 .f32) (p : Fin 1) (q : Fin 80000) :
    matmul dot_S1x4_S4x80000_S1x80000_1_0_0_1_n_n none lhs rhs (constant S1x80000 .f32 0x00000000#32) (ix2 p q)
      = ∑ k : Fin 4, lhs (ix2 p k) * rhs (ix2 k q) := by
  refine (Ideal.matmul_constant_zero_apply dot_S1x4_S4x80000_S1x80000_1_0_0_1_n_n none lhs rhs (ix2 p q)).trans ?_
  rw [← Equiv.sum_comp (contrEquiv1 dot_S1x4_S4x80000_S1x80000_1_0_0_1_n_n 4 rfl rfl).symm]
  refine Finset.sum_congr rfl fun k _ => ?_
  have hk := contrEquiv1_symm_val dot_S1x4_S4x80000_S1x80000_1_0_0_1_n_n 4 rfl rfl k
  have el : dot_S1x4_S4x80000_S1x80000_1_0_0_1_n_n.lhsIdx (ix2 p q) ((contrEquiv1 dot_S1x4_S4x80000_S1x80000_1_0_0_1_n_n 4 rfl rfl).symm k) = ix2 p k :=
    funext fun a => Fin.ext (by
      match a with
      | ⟨0, _⟩ => exact product4_lhs_row _ _
      | ⟨1, _⟩ => exact (dot_S1x4_S4x80000_S1x80000_1_0_0_1_n_n.lhsIdx_val_of_single rfl _ _).trans hk)
  have er : dot_S1x4_S4x80000_S1x80000_1_0_0_1_n_n.rhsIdx (ix2 p q) ((contrEquiv1 dot_S1x4_S4x80000_S1x80000_1_0_0_1_n_n 4 rfl rfl).symm k) = ix2 k q :=
    funext fun a => Fin.ext (by
      match a with
      | ⟨0, _⟩ => exact (dot_S1x4_S4x80000_S1x80000_1_0_0_1_n_n.rhsIdx_val_of_single rfl _ _).trans hk
      | ⟨1, _⟩ => exact product4_rhs_col _ _)
  rw [el, er]

end Cert.Mlp.Kernel

end
-- ==== Proof.KernelColumn.lean ====
/-
  What the kernel body stores, read at one entry.

  The body loads a `1×1×80000` block of the input and one particle's four weight matrices, each behind a leading unit
  axis, and stores a `1×1×80000` block. Dropping the unit axes, it multiplies the first matrix by the block, rectifies,
  and repeats with the other three matrices (no rectifier after the last). At column `q` of the block every product is a
  finite sum along its contracted axis and every rectifier acts entrywise, so the stored value there is the column network
  `Cert.Mlp.column` of the loaded matrices at column `q` of the loaded block.
-/
import proofs.«141210_j35820027249305_1_alg».proof.Proof.Gen.KernelIdeal.Skeleton
import proofs.«141210_j35820027249305_1_alg».proof.Proof.KernelProducts
import proofs.«141210_j35820027249305_1_alg».proof.Proof.Network
import Idealize.ShloMosaic.Lib.ValueLayout

noncomputable section

namespace Cert.Mlp.Kernel

open Cert.KernelIdeal Cert.KernelIdeal.Gen Idealize.ShloMosaic Idealize.ShloMosaic.ValueIdx

/-- The stored block at `(u, o, q)` is the column network of the loaded matrices at column `q` of the loaded input block. -/
theorem stored_apply (x0 : Vec Ideal S1x1x80000 .f32) (x1 : Vec Ideal S1x4x1 .f32) (x2 : Vec Ideal S1x8x4 .f32)
    (x3 : Vec Ideal S1x4x8 .f32) (x4 : Vec Ideal S1x1x4 .f32) (u o : Fin 1) (q : Fin 80000) :
    k0_pay1 x0 x1 x2 x3 x4 (ix3 u o q)
      = column (fun a k => x1 (ix3 (0 : Fin 1) a k)) (fun b a => x2 (ix3 (0 : Fin 1) b a)) (fun c b => x3 (ix3 (0 : Fin 1) c b))
          (fun o c => x4 (ix3 (0 : Fin 1) o c)) (fun k => x0 (ix3 (0 : Fin 1) k q)) o := by
  unfold k0_pay1 column relu
  simp only [shapeCast_ab_1ab_apply, product4_apply, product3_apply, product2_apply, product1_apply,
    shapeCast_1ab_ab_apply, maximumf_apply, broadcast_apply, Ideal.ofBits_def, Ideal.ofBits_zero_f32]

/-- If the loaded blocks are particle `l`'s matrices and column `j` of particle `l`'s input sits at column `q` of the loaded
    input block, then what the body stores at `(u, o, q)` is the network array's entry `(l, o', j)` (the two unit
    coordinates carry no information). -/
theorem stored_eq_network (X : Arr 44 1 400000) (L1 : Arr 44 4 1) (L2 : Arr 44 8 4) (L3 : Arr 44 4 8) (L4 : Arr 44 1 4)
    (x0 : Vec Ideal S1x1x80000 .f32) (x1 : Vec Ideal S1x4x1 .f32) (x2 : Vec Ideal S1x8x4 .f32)
    (x3 : Vec Ideal S1x4x8 .f32) (x4 : Vec Ideal S1x1x4 .f32) (u o : Fin 1) (q : Fin 80000)
    (l : Fin 44) (o' : Fin 1) (j : Fin 400000)
    (e0 : ∀ k : Fin 1, x0 (ix3 (0 : Fin 1) k q) = X (ix3 l k j))
    (e1 : ∀ (a : Fin 4) (k : Fin 1), x1 (ix3 (0 : Fin 1) a k) = L1 (ix3 l a k))
    (e2 : ∀ (b : Fin 8) (a : Fin 4), x2 (ix3 (0 : Fin 1) b a) = L2 (ix3 l b a))
    (e3 : ∀ (c : Fin 4) (b : Fin 8), x3 (ix3 (0 : Fin 1) c b) = L3 (ix3 l c b))
    (e4 : ∀ (o : Fin 1) (c : Fin 4), x4 (ix3 (0 : Fin 1) o c) = L4 (ix3 l o c)) :
    k0_pay1 x0 x1 x2 x3 x4 (ix3 u o q) = networkArr X L1 L2 L3 L4 (ix3 l o' j) := by
  have h0 : (fun k : Fin 1 => x0 (ix3 (0 : Fin 1) k q)) = fun k => X (ix3 l k j) := funext e0
  have h1 : (fun (a : Fin 4) (k : Fin 1) => x1 (ix3 (0 : Fin 1) a k)) = fun a k => L1 (ix3 l a k) :=
    funext fun a => funext fun k => e1 a k
  have h2 : (fun (b : Fin 8) (a : Fin 4) => x2 (ix3 (0 : Fin 1) b a)) = fun b a => L2 (ix3 l b a) :=
    funext fun b => funext fun a => e2 b a
  have h3 : (fun (c : Fin 4) (b : Fin 8) => x3 (ix3 (0 : Fin 1) c b)) = fun c b => L3 (ix3 l c b) :=
    funext fun c => funext fun b => e3 c b
  have h4 : (fun (o : Fin 1) (c : Fin 4) => x4 (ix3 (0 : Fin 1) o c)) = fun o c => L4 (ix3 l o c) :=
    funext fun o => funext fun c => e4 o c
  rw [stored_apply, networkArr_ix3, network, h0, h1, h2, h3, h4, Subsingleton.elim o o']

end Cert.Mlp.Kernel

end
-- ==== Proof.KernelArray.lean ====
/-
  The kernel's result array is the network array.

  The grid has 44 × 5 points, the batch axis fastest: point `t` is particle `t / 5` and batch block `t % 5`. At that
  point the input window and the output window both hold columns `80000 · (t % 5) … 80000 · (t % 5) + 79999` of particle
  `t / 5`'s row, and each weight window holds particle `t / 5`'s whole matrix. So what the point writes back is the network
  array restricted to its block; and entry `(l, 0, j)` of the array lies in the block of point `5 · l + j / 80000`, so
  the blocks cover the array and the array ends holding the network of the argument arrays.
-/
import proofs.«141210_j35820027249305_1_alg».proof.Proof.Gen.KernelIdeal.Value
import proofs.«141210_j35820027249305_1_alg».proof.Proof.KernelColumn

noncomputable section

namespace Cert.Mlp.Kernel

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem origin3 : (![0, 0, 0] : Fin 3 → Nat) = fun _ => 0 := funext fun a => by fin_cases a <;> rfl

/-- Every window's block position at point `t`: particle `t / 5` on the first axis; on the last axis batch block `t % 5`
    for the input and the output and `0` for the weights; `0` on the middle axis. Decided over the 220 points. -/
theorem positions : ∀ t : Fin cfg0.N,
    (win0_5.index t (0 : Fin 3) = t.val / 5 ∧ win0_5.index t (1 : Fin 3) = 0 ∧ win0_5.index t (2 : Fin 3) = t.val % 5)
    ∧ (win0_0.index t (0 : Fin 3) = t.val / 5 ∧ win0_0.index t (1 : Fin 3) = 0 ∧ win0_0.index t (2 : Fin 3) = t.val % 5)
    ∧ (win0_1.index t (0 : Fin 3) = t.val / 5 ∧ win0_1.index t (1 : Fin 3) = 0 ∧ win0_1.index t (2 : Fin 3) = 0)
    ∧ (win0_2.index t (0 : Fin 3) = t.val / 5 ∧ win0_2.index t (1 : Fin 3) = 0 ∧ win0_2.index t (2 : Fin 3) = 0)
    ∧ (win0_3.index t (0 : Fin 3) = t.val / 5 ∧ win0_3.index t (1 : Fin 3) = 0 ∧ win0_3.index t (2 : Fin 3) = 0)
    ∧ (win0_4.index t (0 : Fin 3) = t.val / 5 ∧ win0_4.index t (1 : Fin 3) = 0 ∧ win0_4.index t (2 : Fin 3) = 0) :=
  (by decide +kernel : ∀ t : Fin grid0.N, _)

/-- What point `t` writes back is its block of the network array of the argument arrays. -/
theorem flushed_eq (c : Dev nD) (t : Fin cfg0.N) :
    (dats m 0 c).flushed 5 t = ((cfg0.win 5).blk t).view.read (Elt Ideal)
      (networkArr (V m c main_arg0) (V m c main_arg1) (V m c main_arg2) (V m c main_arg3) (V m c main_arg4)) := by
  rw [Cert.KernelIdeal.Value.flushed5]
  unfold out0_5
  rw [View.canon_unit_zero origin3]
  simp only [View.ld_unit_zero (S := S1x1x80000) origin3, View.ld_unit_zero (S := S1x4x1) origin3,
    View.ld_unit_zero (S := S1x8x4) origin3, View.ld_unit_zero (S := S1x4x8) origin3, View.ld_unit_zero (S := S1x1x4) origin3]
  obtain ⟨⟨p0, p1, p2⟩, ⟨a0, a1, a2⟩, ⟨b0, b1, b2⟩, ⟨c0, c1, c2⟩, ⟨d0, d1, d2⟩, ⟨e0, e1, e2⟩⟩ := positions t
  have ht : t.val < 220 := lt_of_lt_of_eq t.isLt N_0
  have key : ∀ (u o : Fin 1) (q : Fin 80000),
      k0_pay1 (iblk m c 0 t) (iblk m c 1 t) (iblk m c 2 t) (iblk m c 3 t) (iblk m c 4 t) (ix3 u o q)
        = networkArr (V m c main_arg0) (V m c main_arg1) (V m c main_arg2) (V m c main_arg3) (V m c main_arg4)
            (((cfg0.win 5).blk t).view.emb (ix3 u o q)) := by
    intro u o q
    have hemb : ((cfg0.win 5).blk t).view.emb (ix3 u o q)
        = ix3 (⟨t.val / 5, by omega⟩ : Fin 44) o (⟨80000 * (t.val % 5) + q.val, by omega⟩ : Fin 400000) := by
      funext a; apply Fin.ext
      match a with
      | ⟨0, _⟩ => show win0_5.index t (0 : Fin 3) * 1 + 1 * u.val = t.val / 5; omega
      | ⟨1, _⟩ => show win0_5.index t (1 : Fin 3) * 1 + 1 * o.val = o.val; omega
      | ⟨2, _⟩ => show win0_5.index t (2 : Fin 3) * 80000 + 1 * q.val = 80000 * (t.val % 5) + q.val; omega
    rw [hemb]
    refine stored_eq_network _ _ _ _ _ _ _ _ _ _ u o q _ o _ ?_ ?_ ?_ ?_ ?_
    · intro k
      show V m c main_arg0 (((cfg0.win 0).blk t).view.emb (ix3 (0 : Fin 1) k q)) = V m c main_arg0 (ix3 _ k _)
      refine congrArg _ (funext fun a => Fin.ext ?_)
      match a with
      | ⟨0, _⟩ => show win0_0.index t (0 : Fin 3) * 1 + 1 * 0 = t.val / 5; omega
      | ⟨1, _⟩ => show win0_0.index t (1 : Fin 3) * 1 + 1 * k.val = k.val; omega
      | ⟨2, _⟩ => show win0_0.index t (2 : Fin 3) * 80000 + 1 * q.val = 80000 * (t.val % 5) + q.val; omega
    · intro a k
      show V m c main_arg1 (((cfg0.win 1).blk t).view.emb (ix3 (0 : Fin 1) a k)) = V m c main_arg1 (ix3 _ a k)
      refine congrArg _ (funext fun d => Fin.ext ?_)
      match d with
      | ⟨0, _⟩ => show win0_1.index t (0 : Fin 3) * 1 + 1 * 0 = t.val / 5; omega
      | ⟨1, _⟩ => show win0_1.index t (1 : Fin 3) * 4 + 1 * a.val = a.val; omega
      | ⟨2, _⟩ => show win0_1.index t (2 : Fin 3) * 1 + 1 * k.val = k.val; omega
    · intro b a
      show V m c main_arg2 (((cfg0.win 2).blk t).view.emb (ix3 (0 : Fin 1) b a)) = V m c main_arg2 (ix3 _ b a)
      refine congrArg _ (funext fun d => Fin.ext ?_)
      match d with
      | ⟨0, _⟩ => show win0_2.index t (0 : Fin 3) * 1 + 1 * 0 = t.val / 5; omega
      | ⟨1, _⟩ => show win0_2.index t (1 : Fin 3) * 8 + 1 * b.val = b.val; omega
      | ⟨2, _⟩ => show win0_2.index t (2 : Fin 3) * 4 + 1 * a.val = a.val; omega
    · intro c' b
      show V m c main_arg3 (((cfg0.win 3).blk t).view.emb (ix3 (0 : Fin 1) c' b)) = V m c main_arg3 (ix3 _ c' b)
      refine congrArg _ (funext fun d => Fin.ext ?_)
      match d with
      | ⟨0, _⟩ => show win0_3.index t (0 : Fin 3) * 1 + 1 * 0 = t.val / 5; omega
      | ⟨1, _⟩ => show win0_3.index t (1 : Fin 3) * 4 + 1 * c'.val = c'.val; omega
      | ⟨2, _⟩ => show win0_3.index t (2 : Fin 3) * 8 + 1 * b.val = b.val; omega
    · intro o₁ c'
      show V m c main_arg4 (((cfg0.win 4).blk t).view.emb (ix3 (0 : Fin 1) o₁ c')) = V m c main_arg4 (ix3 _ o₁ c')
      refine congrArg _ (funext fun d => Fin.ext ?_)
      match d with
      | ⟨0, _⟩ => show win0_4.index t (0 : Fin 3) * 1 + 1 * 0 = t.val / 5; omega
      | ⟨1, _⟩ => show win0_4.index t (1 : Fin 3) * 1 + 1 * o₁.val = o₁.val; omega
      | ⟨2, _⟩ => show win0_4.index t (2 : Fin 3) * 4 + 1 * c'.val = c'.val; omega
  exact funext fun (y : S1x1x80000.Idx) => by
    obtain ⟨u, o, q, rfl⟩ : ∃ (u o : Fin 1) (q : Fin 80000), y = ix3 u o q := ⟨y 0, y 1, y 2, eq_ix3 y⟩
    exact key u o q

/-- An entry of the result array lies in point `t`'s output block iff each coordinate lies in the block's range. -/
theorem mem_block (t : Fin cfg0.N) (i : S44x1x400000.Idx) :
    i ∈ ((cfg0.win 5).blk t).view.set ↔ ∀ a : Fin 3, win0_5.index t a * S1x1x80000.size a ≤ (i a).val
      ∧ (i a).val < win0_5.index t a * S1x1x80000.size a + S1x1x80000.size a := by
  show i ∈ ((View.whole main_v0).slice (win0_5.rect t)).set ↔ _
  rw [View.set_slice_whole, Rect.mem_set_unit]
  exact Iff.rfl

/-- Entry `(l, 0, j)` lies in the block of point `5 · l + j / 80000`: the output blocks cover the array. -/
theorem covered (i : S44x1x400000.Idx) :
    ∃ t : Fin cfg0.N, (cfg0.win 5).flush t = true ∧ i ∈ ((cfg0.win 5).blk t).view.set := by
  have hi0 : (i 0).val < 44 := (i 0).isLt
  have hi1 : (i 1).val < 1 := (i 1).isLt
  have hi2 : (i 2).val < 400000 := (i 2).isLt
  have hN : cfg0.N = 220 := N_0
  obtain ⟨t, tv⟩ : ∃ t : Fin cfg0.N, t.val = 5 * (i 0).val + (i 2).val / 80000 := ⟨⟨_, by rw [hN]; omega⟩, rfl⟩
  obtain ⟨⟨p0, p1, p2⟩, -⟩ := positions t
  refine ⟨t, flush0_5 t, ?_⟩
  rw [mem_block]
  intro a
  match a with
  | ⟨0, _⟩ =>
    show win0_5.index t (0 : Fin 3) * 1 ≤ (i 0).val ∧ (i 0).val < win0_5.index t (0 : Fin 3) * 1 + 1
    omega
  | ⟨1, _⟩ =>
    show win0_5.index t (1 : Fin 3) * 1 ≤ (i 1).val ∧ (i 1).val < win0_5.index t (1 : Fin 3) * 1 + 1
    omega
  | ⟨2, _⟩ =>
    show win0_5.index t (2 : Fin 3) * 80000 ≤ (i 2).val ∧ (i 2).val < win0_5.index t (2 : Fin 3) * 80000 + 80000
    omega

/-- After the run the result array holds the network of the argument arrays. -/
theorem final (c : Dev nD) : (dats m 0 c).arrAt 5 cfg0.N
    = networkArr (m ((c : Thread nD τ).loc main_arg0)) (m ((c : Thread nD τ).loc main_arg1))
        (m ((c : Thread nD τ).loc main_arg2)) (m ((c : Thread nD τ).loc main_arg3)) (m ((c : Thread nD τ).loc main_arg4)) :=
  (dats m 0 c).arrAt_eq_of_cover 5
    (networkArr (V m c main_arg0) (V m c main_arg1) (V m c main_arg2) (V m c main_arg3) (V m c main_arg4))
    (fun t _ => flushed_eq m c t) covered

/-- Every weakly fair execution of the kernel's program ends with the result array at the network of the argument
    arrays, and the arguments unchanged. -/
theorem run : θ_run defs (onTc (τ := τ) (main (F := Ideal))) ⟨m, fun _ => 0, ρ⟩ fun r => ∀ c : Dev nD,
      r.2.mem ((c : Thread nD τ).loc main_v0)
        = networkArr (m ((c : Thread nD τ).loc main_arg0)) (m ((c : Thread nD τ).loc main_arg1))
            (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩)
    (Cert.KernelIdeal.Value.run_blocks m ρ)

end Cert.Mlp.Kernel

end
-- ==== Proof.lean ====
/-
  The certificate's five claims.

  The kernel runs one particle's four-layer rectified network on a block of 80000 batch columns at each of its 44 × 5 grid
  points; the reference runs four batched matrix products with a rectifier after each of the first three. On the extended
  reals both results are, entry by entry, the same nested finite sums of products with `max · 0` between the layers
  (`Cert.Mlp.networkArr`): a matrix product into a zero block is the plain sum, tiling the batch axis changes nothing, and
  no sum is regrouped, so no law beyond `0 + s = s` is used and finiteness of the inputs is never needed.

  The kernel's array after its run is read from the generated blockwise value leg (`Cert.Mlp.Kernel.run`), the reference's
  from its generated run and read-at-an-index lemmas (`Cert.Mlp.Ref.reference_eq`). The three frames are the generated
  ones; the idealization rewrote nothing, so `preserves` is `True`.
-/
import proofs.«141210_j35820027249305_1_alg».proof.Defs
import proofs.«141210_j35820027249305_1_alg».proof.Proof.Gen.Kernel
import proofs.«141210_j35820027249305_1_alg».proof.Proof.Gen.Kernel.Skeleton
import proofs.«141210_j35820027249305_1_alg».proof.Proof.Gen.Kernel.Launch
import proofs.«141210_j35820027249305_1_alg».proof.Proof.Gen.Kernel.Points
import proofs.«141210_j35820027249305_1_alg».proof.Proof.Gen.Kernel.Frame
import proofs.«141210_j35820027249305_1_alg».proof.Proof.Gen.KernelIdeal
import proofs.«141210_j35820027249305_1_alg».proof.Proof.Gen.KernelIdeal.Skeleton
import proofs.«141210_j35820027249305_1_alg».proof.Proof.Gen.KernelIdeal.Launch
import proofs.«141210_j35820027249305_1_alg».proof.Proof.Gen.KernelIdeal.Points
import proofs.«141210_j35820027249305_1_alg».proof.Proof.Gen.KernelIdeal.Frame
import proofs.«141210_j35820027249305_1_alg».proof.Proof.Gen.ReferenceIdeal
import proofs.«141210_j35820027249305_1_alg».proof.Proof.Gen.Pre_finite_inputs
import proofs.«141210_j35820027249305_1_alg».proof.Proof.Gen.KernelIdeal.Value
import proofs.«141210_j35820027249305_1_alg».proof.Proof.Gen.ReferenceIdeal.Run
import proofs.«141210_j35820027249305_1_alg».proof.Proof.Gen.ReferenceIdeal.Read
import proofs.«141210_j35820027249305_1_alg».proof.Proof.RefNetwork
import proofs.«141210_j35820027249305_1_alg».proof.Proof.KernelArray
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- The idealized kernel runs and leaves its arguments unchanged. -/
theorem frame_kernel_ideal : Cert.frame_KernelIdeal := fun m ρ _ => Cert.KernelIdeal.Gen.frame m ρ

/-- The reference runs and leaves its arguments unchanged: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the five arguments both programs end with the network of those arguments in their
    result array: the kernel by its blocks, the reference by its four products read at an index. -/
theorem algebraic : Cert.algebraic_KernelIdeal_ReferenceIdeal := by
  intro m ρ m' ρ' _ hagree
  refine ⟨_, Cert.Mlp.Kernel.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2,
    Cert.ReferenceIdeal.Read.val_main_v6_eq]
  exact Cert.Mlp.Ref.reference_eq _ _ _ _ _

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
